-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S100000 : Shape := ⟨1, ![100000]⟩
abbrev S20000 : Shape := ⟨1, ![20000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S20000 : S_.BroadcastsInDim S20000 (![] : Fin 0 → Fin S20000.rank)
  reducesTo_S20000_S_d0 : S20000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S1000000 32) (main_arg2 : IVec S1000000 32) (main_arg3 : FVec F S100000 .f32) (main_arg4 : FVec F S20000 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg3
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S20000 .f32 := Host.absf main_arg4
  let main_cst_2 : FVec F S_ .f32 := constant S_ .f32 0x7F800000#32
  let main_v10 : FVec F S20000 .f32 := broadcastInDim S20000 ![] bcast_S_S20000 main_cst_2
  let main_v11 : IVec S20000 1 := cmpf .olt main_v9 main_v10
  let main_c_3 : IVec S_ 1 := constantI S_ 1 1#1
  let main_v12 : IVec S_ 1 := (fun x v => Host.reduce IntOp.andi x v reducesTo_S20000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S1000000 : Shape := ⟨1, ![1000000]⟩
abbrev S100000 : Shape := ⟨1, ![100000]⟩
abbrev S20000 : Shape := ⟨1, ![20000]⟩
abbrev S128x128 : Shape := ⟨2, ![128, 128]⟩
abbrev S_ : Shape := ⟨0, ![]⟩
abbrev S100000x1 : Shape := ⟨2, ![100000, 1]⟩
abbrev S1000000x1 : Shape := ⟨2, ![1000000, 1]⟩
abbrev S1000000x128 : Shape := ⟨2, ![1000000, 128]⟩
abbrev S20000x128 : Shape := ⟨2, ![20000, 128]⟩
abbrev S20000x1 : Shape := ⟨2, ![20000, 1]⟩
abbrev S10000x128 : Shape := ⟨2, ![10000, 128]⟩
abbrev S10000x1 : Shape := ⟨2, ![10000, 1]⟩

abbrev nBuf : Space → Nat
  | .hbm => 46
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S100000, .f32⟩
  | .hbm, ⟨4, _⟩ => ⟨S20000, .f32⟩
  | .hbm, ⟨5, _⟩ => ⟨S128x128, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S100000x1, .f32⟩
  | .hbm, ⟨13, _⟩ => ⟨S100000x1, .f32⟩
  | .hbm, ⟨14, _⟩ => ⟨S100000x128, .f32⟩
  | .hbm, ⟨15, _⟩ => ⟨S100000x128, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S20000x128, .f32⟩
  | .hbm, ⟨27, _⟩ => ⟨S1000000x1, .i32⟩
  | .hbm, ⟨28, _⟩ => ⟨S20000x128, .f32⟩
  | .hbm, ⟨29, _⟩ => ⟨S20000x1, .f32⟩
  | .hbm, ⟨30, _⟩ => ⟨S20000x128, .f32⟩
  | .hbm, ⟨31, _⟩ => ⟨S20000x128, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x128, .f32⟩
  | .hbm, ⟨41, _⟩ => ⟨S_, .f32⟩
  | .hbm, ⟨42, _⟩ => ⟨S100000x128, .f32⟩
  | .hbm, ⟨43, _⟩ => ⟨S1000000x1, .i32⟩
  | .hbm, ⟨44, _⟩ => ⟨S100000x128, .f32⟩
  | .hbm, ⟨45, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000 : S_.BroadcastsInDim S100000 (![] : Fin 0 → Fin S100000.rank)
  bcast_S_S20000 : S_.BroadcastsInDim S20000 (![] : Fin 0 → Fin S20000.rank)
  shapeCasts_S100000_S100000x1 : S100000.ShapeCasts S100000x1
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v30) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1000000 : Shape := ⟨1, ![1000000]⟩
abbrev S100000 : Shape := ⟨1, ![100000]⟩
abbrev S20000 : Shape := ⟨1, ![20000]⟩
abbrev S128x128 : Shape := ⟨2, ![128, 128]⟩
abbrev S_ : Shape := ⟨0, ![]⟩
abbrev S100000x1 : Shape := ⟨2, ![100000, 1]⟩
abbrev S1000000x1 : Shape := ⟨2, ![1000000, 1]⟩
abbrev S1000000x128 : Shape := ⟨2, ![1000000, 128]⟩
abbrev S20000x128 : Shape := ⟨2, ![20000, 128]⟩
abbrev S20000x1 : Shape := ⟨2, ![20000, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S100000, .f32⟩
  | .hbm, ⟨4, _⟩ => ⟨S20000, .f32⟩
  | .hbm, ⟨5, _⟩ => ⟨S128x128, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S100000x1, .f32⟩
  | .hbm, ⟨13, _⟩ => ⟨S100000x128, .f32⟩
  | .hbm, ⟨14, _⟩ => ⟨S100000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S_, .f32⟩
  | .hbm, ⟨25, _⟩ => ⟨S20000x128, .f32⟩
  | .hbm, ⟨26, _⟩ => ⟨S1000000x1, .i32⟩
  | .hbm, ⟨27, _⟩ => ⟨S20000x128, .f32⟩
  | .hbm, ⟨28, _⟩ => ⟨S20000x1, .f32⟩
  | .hbm, ⟨29, _⟩ => ⟨S20000x128, .f32⟩
  | .hbm, ⟨30, _⟩ => ⟨S20000x128, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x128, .f32⟩
  | .hbm, ⟨40, _⟩ => ⟨S_, .f32⟩
  | .hbm, ⟨41, _⟩ => ⟨S100000x128, .f32⟩
  | .hbm, ⟨42, _⟩ => ⟨S1000000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S20000 : S_.BroadcastsInDim S20000 (![] : Fin 0 → Fin S20000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.BlockProduct.lean ====
/-
  One block of the kernel's output, entry by entry.

  At a grid point the body holds a 10000 × 128 block y of the aggregated features, the matching 10000 × 1 column s of
  row factors, and the whole 128 × 128 matrix w. It scales each row of y by its factor (the column spread across the
  128 columns), narrows both operands to the shorter float format — the identity on extended reals — and multiplies
  into a zero accumulator. So the stored block has at (p, q) the entry  Σ_k (y_{p,k} · s_{p,0}) · w_{k,q},  the sum
  over the one contracted axis re-indexed by its coordinate k.
-/
import proofs.«146223_j35751307772368_2_alg».proof.Proof.Gen.KernelIdeal.Skeleton
import proofs.«146223_j35751307772368_2_alg».proof.Proof.LibColumns
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-- The left operand's index of the block product at output `(p, q)` and contracted coordinate `k` is `(p, k)`:
    axis 0 is the output's row (not contracted), axis 1 the one contracted axis. -/
theorem lhs_at (p : Fin 10000) (q k : Fin 128) :
    dot_S10000x128_S128x128_S10000x128_1_0_0_1_n_n.lhsIdx (ix2 p q) ((contrEquiv1 dot_S10000x128_S128x128_S10000x128_1_0_0_1_n_n 128 rfl rfl).symm k) = ix2 p k :=
  funext fun a => Fin.ext (by
    have hk := contrEquiv1_symm_val dot_S10000x128_S128x128_S10000x128_1_0_0_1_n_n 128 rfl rfl k
    match a with
    | ⟨0, _⟩ =>
      show (dot_S10000x128_S128x128_S10000x128_1_0_0_1_n_n.lhsIdx (ix2 p q) _ 0).val = p.val
      unfold DotDims.lhsIdx
      rw [dif_neg (show ¬(0 : Fin S10000x128.rank) ∈ dot_S10000x128_S128x128_S10000x128_1_0_0_1_n_n.lhsBatch by decide),
        dif_pos (show (0 : Fin S10000x128.rank) ∈ dot_S10000x128_S128x128_S10000x128_1_0_0_1_n_n.lhsNonContracting by decide)]
      rfl
    | ⟨1, _⟩ => exact (dot_S10000x128_S128x128_S10000x128_1_0_0_1_n_n.lhsIdx_val_of_single rfl (ix2 p q) _).trans hk)

/-- The right operand's index there is `(k, q)`: axis 0 is the contracted axis, axis 1 the output's column. -/
theorem rhs_at (p : Fin 10000) (q k : Fin 128) :
    dot_S10000x128_S128x128_S10000x128_1_0_0_1_n_n.rhsIdx (ix2 p q) ((contrEquiv1 dot_S10000x128_S128x128_S10000x128_1_0_0_1_n_n 128 rfl rfl).symm k) = ix2 k q :=
  funext fun a => Fin.ext (by
    have hk := contrEquiv1_symm_val dot_S10000x128_S128x128_S10000x128_1_0_0_1_n_n 128 rfl rfl k
    match a with
    | ⟨0, _⟩ => exact (dot_S10000x128_S128x128_S10000x128_1_0_0_1_n_n.rhsIdx_val_of_single rfl (ix2 p q) _).trans hk
    | ⟨1, _⟩ =>
      show (dot_S10000x128_S128x128_S10000x128_1_0_0_1_n_n.rhsIdx (ix2 p q) _ 1).val = q.val
      unfold DotDims.rhsIdx
      rw [dif_neg (show ¬(1 : Fin S128x128.rank) ∈ dot_S10000x128_S128x128_S10000x128_1_0_0_1_n_n.rhsBatch by decide),
        dif_pos (show (1 : Fin S128x128.rank) ∈ dot_S10000x128_S128x128_S10000x128_1_0_0_1_n_n.rhsNonContracting by decide)]
      rfl)

/-- The scaled block at `(p, k)`: the feature entry times its row's factor. -/
theorem scaled_at (y : Vec Ideal S10000x128 .f32) (s : Vec Ideal S10000x1 .f32) (p : Fin 10000) (k : Fin 128) :
    (mulf (F := Ideal) (shapeCast S10000x128 y shapeCasts_S10000x128_S10000x128)
      (broadcastTo S10000x128 (shapeCast S10000x1 s shapeCasts_S10000x1_S10000x1) broadcasts_S10000x1_S10000x128)
        : FVec Ideal S10000x128 .f32) (ix2 p k)
    = y (ix2 p k) * s (ix2 p (0 : Fin 1)) := by
  rw [shapeCast_self, shapeCast_self]
  exact congrArg (y (ix2 p k) * ·) (Cert.LibColumns.broadcastTo_a1_ab_apply s broadcasts_S10000x1_S10000x128 p k)

/-- The stored block at `(p, q)`: the sum over `k` of the scaled feature entry `(p, k)` times `w`'s entry `(k, q)`. -/
theorem block_apply (y : Vec Ideal S10000x128 .f32) (s : Vec Ideal S10000x1 .f32) (w : Vec Ideal S128x128 .f32)
    (p : Fin 10000) (q : Fin 128) :
    k0_pay1 y s w (ix2 p q) = ∑ k : Fin 128, (y (ix2 p k) * s (ix2 p (0 : Fin 1))) * w (ix2 k q) := by
  unfold k0_pay1
  refine (Ideal.matmul_constant_zero_apply dot_S10000x128_S128x128_S10000x128_1_0_0_1_n_n none _ _ (ix2 p q)).trans ?_
  refine (Cert.LibColumns.sum_contr1 dot_S10000x128_S128x128_S10000x128_1_0_0_1_n_n 128 rfl rfl _ _ (ix2 p q) (fun k => ix2 p k) (fun k => ix2 k q)
    (lhs_at p q) (rhs_at p q)).trans ?_
  exact Finset.sum_congr rfl fun k _ => congrArg (· * w (ix2 k q)) (scaled_at y s p k)

end Cert.KernelIdeal.BlockValue

end
-- ==== Proof.HostPrefix.lean ====
/-
  What the region finds in the arrays its windows read.

  Before the one region both programs run the same chain of host operations on the same arguments: the node degrees
  raised to the power −1/2, the hyperedge degrees raised to −1, the features scaled by row, gathered along the
  incidence list and summed into hyperedges, scaled again, gathered back and summed into nodes. The kernel's program
  and the reference's program spell this chain with the same operations and the same literals, so the array of
  aggregated features the region's first window reads is the reference's aggregate, and the column its second window
  reads is the reference's vector of inverse square-root degrees reshaped to one column. Nothing is computed here:
  each side's operations are laid beside the other's and are the same term.
-/
import proofs.«146223_j35751307772368_2_alg».proof.Proof.Gen.KernelIdeal.Frame
import proofs.«146223_j35751307772368_2_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- The aggregated features, as the region finds them, are the reference's aggregate of the same arguments. -/
theorem features_eq (c : Dev nD) :
    (V m c main_v30 : FVec Ideal S100000x128 .f32)
      = Cert.ReferenceIdeal.Read.val_main_v29 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  dsimp only [Gen.V, Gen.hostOps0]
  after_results_simp
  rfl

set_option maxRecDepth 8192 in
set_option maxHeartbeats 2000000 in
/-- The column of row factors, as the region finds it, is the reference's vector of inverse square-root degrees
    reshaped to one column. -/
theorem factors_eq (c : Dev nD) :
    (V m c main_v4 : FVec Ideal S100000x1 .f32)
      = shapeCast S100000x1 (Cert.ReferenceIdeal.Read.val_main_v1 (F := Ideal) (m ((c : Thread nD τ).loc main_arg3)))
          shapeCasts_S100000_S100000x1 := by
  dsimp only [Gen.V, Gen.hostOps0]
  after_results_simp
  rfl

end Cert.KernelIdeal.HostPrefix

end
-- ==== Proof.RowScaledProduct.lean ====
/-
  The row-scaled matrix product, entry by entry.

  For a vector d of length 100000, a 100000 × 128 matrix Y and a 128 × 128 matrix W, the matrix diag(d) · Y · W has at
  (r, q) the entry  Σ_k (d_r · Y_{r,k}) · W_{k,q},  k running over the 128 columns of Y. The entries are extended
  reals. Whether the row factor d_r stands to the left or to the right of Y_{r,k} does not matter: the product of two
  extended reals is commutative, so the two sums agree term by term, and no entry is asked to be finite.
-/
import Idealize.ShloMosaic.PureOps.Ideal
import Idealize.ShloMosaic.Lib.ValueIdx

noncomputable section

namespace Cert.RowScaled

open Idealize.ShloMosaic Idealize.ShloMosaic.ValueIdx

/-- diag(d) · Y · W at the index `i = (r, q)`: the sum over the shared axis `k` of `(d_r · Y_{r,k}) · W_{k,q}`. -/
def rowScaledProduct (d : (⟨1, ![100000]⟩ : Shape).Idx → EReal) (Y : (⟨2, ![100000, 128]⟩ : Shape).Idx → EReal)
    (W : (⟨2, ![128, 128]⟩ : Shape).Idx → EReal) : (⟨2, ![100000, 128]⟩ : Shape).Idx → EReal :=
  fun i => ∑ k : Fin 128, (d (ix1 (i 0)) * Y (ix2 (i 0) k)) * W (ix2 k (i 1))

/-- The entry at explicit coordinates. -/
theorem rowScaledProduct_apply (d : (⟨1, ![100000]⟩ : Shape).Idx → EReal) (Y : (⟨2, ![100000, 128]⟩ : Shape).Idx → EReal)
    (W : (⟨2, ![128, 128]⟩ : Shape).Idx → EReal) (r : Fin 100000) (q : Fin 128) :
    rowScaledProduct d Y W (ix2 r q) = ∑ k : Fin 128, (d (ix1 r) * Y (ix2 r k)) * W (ix2 k q) := rfl

/-- A row scaled from the right is the row scaled from the left: `(y_k · a) · w_k` summed over `k` is
    `(a · y_k) · w_k` summed over `k`, by commutativity of the product in each term. -/
theorem sum_scale_right_eq_left {K : ℕ} (a : EReal) (y w : Fin K → EReal) :
    ∑ k : Fin K, (y k * a) * w k = ∑ k : Fin K, (a * y k) * w k :=
  Finset.sum_congr rfl fun k _ => by rw [mul_comm (y k) a]

end Cert.RowScaled

end
-- ==== Proof.ArrayValue.lean ====
/-
  From the ten blocks to the whole array.

  The grid has ten points. Point t reads rows 10000·t … 10000·t + 9999 of the aggregated features and of the column of
  row factors, reads all of W, and writes the same rows of the result. So the block it writes is the restriction to
  those rows of ONE function of the three arrays the region finds: at (r, q), the sum over k of
  (features_{r,k} · factor_{r,0}) · W_{k,q}. The ten row ranges cover every row — row r lies in the block of point
  r / 10000 — so after the run the result array is that function. Finally the region's arrays are the reference's own
  stages (the host chains agree), the column at (r, 0) is the vector at r, and a factor on the right of a product is a
  factor on the left: the array is diag(d) · Y · W.

  The block reads are stated for ARBITRARY arrays: which rows a block takes depends on the grid point only, never on
  what the array holds.
-/
import proofs.«146223_j35751307772368_2_alg».proof.Proof.Gen.KernelIdeal.Value
import proofs.«146223_j35751307772368_2_alg».proof.Proof.BlockProduct
import proofs.«146223_j35751307772368_2_alg».proof.Proof.HostPrefix
import proofs.«146223_j35751307772368_2_alg».proof.Proof.RowScaledProduct

noncomputable section

namespace Cert.KernelIdeal.ArrayValue

open Cert.KernelIdeal Cert.KernelIdeal.Gen Idealize.ShloMosaic Idealize.ShloMosaic.TcCoe Idealize.SL.Sem
open Idealize.ShloMosaic.ValueIdx Cert.RowScaled
open Idealize.ShloMosaic.Pipeline (Dat)

theorem zero_offsets : (![0, 0] : Fin 2 → Nat) = fun _ => 0 := funext fun a => by fin_cases a <;> rfl

/-! ## The function the region computes -/

/-- What the region writes, as one function of the three arrays it reads: at `(r, q)` the sum over `k` of the
    feature entry `(r, k)` times row `r`'s factor, times `W`'s entry `(k, q)`. -/
def regionProduct (Y : FVec Ideal S100000x128 .f32) (S : FVec Ideal S100000x1 .f32) (W : FVec Ideal S128x128 .f32) :
    FVec Ideal S100000x128 .f32 :=
  fun i => ∑ k : Fin 128, (Y (ix2 (i 0) k) * S (ix2 (i 0) (0 : Fin 1))) * W (ix2 k (i 1))

theorem regionProduct_apply (Y : FVec Ideal S100000x128 .f32) (S : FVec Ideal S100000x1 .f32) (W : FVec Ideal S128x128 .f32)
    (r : Fin 100000) (q : Fin 128) :
    regionProduct Y S W (ix2 r q) = ∑ k : Fin 128, (Y (ix2 r k) * S (ix2 r (0 : Fin 1))) * W (ix2 k q) := rfl

/-- With the column a reshaped vector `d`, that function is `diag(d) · Y · W`. -/
theorem regionProduct_column (Y : FVec Ideal S100000x128 .f32) (d : FVec Ideal S100000 .f32) (W : FVec Ideal S128x128 .f32)
    (h : S100000.ShapeCasts S100000x1) :
    regionProduct Y (shapeCast S100000x1 d h) W = rowScaledProduct d Y W := by
  funext i
  obtain ⟨r, q, rfl⟩ : ∃ (r : Fin 100000) (q : Fin 128), i = ix2 r q := ⟨i 0, i 1, eq_ix2 i⟩
  rw [regionProduct_apply, rowScaledProduct_apply, Cert.LibColumns.shapeCast_a_a1_apply d h r (0 : Fin 1)]
  exact sum_scale_right_eq_left (d (ix1 r)) (fun k => Y (ix2 r k)) (fun k => W (ix2 k q))

/-! ## Which rows each block takes -/

/-- The printed index maps over the ten points: the two row-blocked inputs and the output sit at block row `t`,
    block column 0; `W`'s one block is at (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt N_0

/-- Of any 100000 × 128 array, the first window's block at point `t` has at `(p, k)` the array's entry
    `(10000·t + p, k)`. -/
theorem rows_read (A : FVec Ideal S100000x128 .f32) (t : Fin cfg0.N) (p : Fin 10000) (k : Fin 128) (r : Fin 100000)
    (hr : r.val = t.val * 10000 + p.val) :
    (((cfg0.win 0).blk t).view.read (Elt Ideal) A : Vec Ideal S10000x128 .f32) (ix2 p k) = A (ix2 r k) := by
  obtain ⟨e0, e1, -⟩ := index_facts t
  show A (((cfg0.win 0).blk t).view.emb (ix2 p k)) = A (ix2 r k)
  exact congrArg A (funext fun a => Fin.ext (by
    match a with
    | ⟨0, _⟩ => show win0_0.index t (0 : Fin 2) * 10000 + 1 * p.val = r.val; rw [e0, hr]; omega
    | ⟨1, _⟩ => show win0_0.index t (1 : Fin 2) * 128 + 1 * k.val = k.val; rw [e1]; omega))

/-- Of any 100000 × 1 column, the second window's block at point `t` has at `(p, 0)` the column's entry
    `(10000·t + p, 0)`. -/
theorem column_read (A : FVec Ideal S100000x1 .f32) (t : Fin cfg0.N) (p : Fin 10000) (r : Fin 100000)
    (hr : r.val = t.val * 10000 + p.val) :
    (((cfg0.win 1).blk t).view.read (Elt Ideal) A : Vec Ideal S10000x1 .f32) (ix2 p (0 : Fin 1)) = A (ix2 r (0 : Fin 1)) := by
  obtain ⟨-, -, e2, e3, -⟩ := index_facts t
  show A (((cfg0.win 1).blk t).view.emb (ix2 p (0 : Fin 1))) = A (ix2 r (0 : Fin 1))
  exact congrArg A (funext fun a => Fin.ext (by
    match a with
    | ⟨0, _⟩ => show win0_1.index t (0 : Fin 2) * 10000 + 1 * p.val = r.val; rw [e2, hr]; omega
    | ⟨1, _⟩ => show win0_1.index t (1 : Fin 2) * 1 + 1 * 0 = 0; rw [e3]))

/-- The third window's one block is the whole 128 × 128 array. -/
theorem whole_read (A : FVec Ideal S128x128 .f32) (t : Fin cfg0.N) (k q : Fin 128) :
    (((cfg0.win 2).blk t).view.read (Elt Ideal) A : Vec Ideal S128x128 .f32) (ix2 k q) = A (ix2 k q) := by
  obtain ⟨-, -, -, -, e4, e5, -⟩ := index_facts t
  show A (((cfg0.win 2).blk t).view.emb (ix2 k q)) = A (ix2 k q)
  exact congrArg A (funext fun a => Fin.ext (by
    match a with
    | ⟨0, _⟩ => show win0_2.index t (0 : Fin 2) * 128 + 1 * k.val = k.val; rw [e4]; omega
    | ⟨1, _⟩ => show win0_2.index t (1 : Fin 2) * 128 + 1 * q.val = q.val; rw [e5]; omega))

/-- Of any 100000 × 128 array, the output window's block at point `t` has at `(p, q)` the array's entry
    `(10000·t + p, q)`. -/
theorem result_read (A : FVec Ideal S100000x128 .f32) (t : Fin cfg0.N) (p : Fin 10000) (q : Fin 128) (r : Fin 100000)
    (hr : r.val = t.val * 10000 + p.val) :
    (((cfg0.win 3).blk t).view.read (Elt Ideal) A : Vec Ideal S10000x128 .f32) (ix2 p q) = A (ix2 r q) := by
  obtain ⟨-, -, -, -, -, -, e6, e7⟩ := index_facts t
  show A (((cfg0.win 3).blk t).view.emb (ix2 p q)) = A (ix2 r q)
  exact congrArg A (funext fun a => Fin.ext (by
    match a with
    | ⟨0, _⟩ => show win0_3.index t (0 : Fin 2) * 10000 + 1 * p.val = r.val; rw [e6, hr]; omega
    | ⟨1, _⟩ => show win0_3.index t (1 : Fin 2) * 128 + 1 * q.val = q.val; rw [e7]; omega))

/-- The output window moves its whole block: what is written back of a staged block `X` is `X`. -/
theorem written_at (X : Vec Ideal S10000x128 .f32) (t : Fin cfg0.N) (p : Fin 10000) (q : Fin 128) :
    ((cfg0.win 3).cut (grid0.coords t) X : Vec Ideal S10000x128 .f32) (ix2 p q) = X (ix2 p q) := by
  show X ((cfg0.win 3).xinj (grid0.coords t) (ix2 p q)) = X (ix2 p q)
  exact congrArg X (funext fun a => Fin.ext (by
    match a with
    | ⟨0, _⟩ => rfl
    | ⟨1, _⟩ => rfl))

/-- For ANY three arrays: the body's stored block of their blocks at point `t`, written back, is block `t` of
    `regionProduct` of the arrays. -/
theorem block_eq (Y : FVec Ideal S100000x128 .f32) (S : FVec Ideal S100000x1 .f32) (W : FVec Ideal S128x128 .f32)
    (t : Fin cfg0.N) :
    (cfg0.win 3).cut (grid0.coords t)
        (k0_pay1 (((cfg0.win 0).blk t).view.read (Elt Ideal) Y) (((cfg0.win 1).blk t).view.read (Elt Ideal) S)
          (((cfg0.win 2).blk t).view.read (Elt Ideal) W))
      = ((cfg0.win 3).blk t).view.read (Elt Ideal) (regionProduct Y S W) := by
  funext j
  obtain ⟨p, q, rfl⟩ : ∃ (p : Fin 10000) (q : Fin 128), j = ix2 p q := ⟨j 0, j 1, eq_ix2 j⟩
  have ht := point_lt t
  have hp := p.isLt
  obtain ⟨r, hr⟩ : ∃ r : Fin 100000, r.val = t.val * 10000 + p.val := ⟨⟨t.val * 10000 + p.val, by omega⟩, rfl⟩
  refine (written_at _ t p q).trans ?_
  refine (Cert.KernelIdeal.BlockValue.block_apply (((cfg0.win 0).blk t).view.read (Elt Ideal) Y)
    (((cfg0.win 1).blk t).view.read (Elt Ideal) S) (((cfg0.win 2).blk t).view.read (Elt Ideal) W) p q).trans ?_
  refine Eq.trans ?_ (result_read (regionProduct Y S W) t p q r hr).symm
  rw [regionProduct_apply]
  refine Finset.sum_congr rfl fun k _ => ?_
  rw [rows_read Y t p k r hr, column_read S t p r hr, whole_read W t k q]

/-! ## The cover -/

/-- An index of the result array is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v31).slice (win0_3.rect t)).set ↔ _
  rw [View.set_slice_whole, Rect.mem_set_unit]
  exact Iff.rfl

/-- Every index is written: row `r` lies in the block of point `r / 10000`. -/
theorem covered (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  obtain ⟨t, ht⟩ : ∃ t : Fin cfg0.N, t.val = (i 0).val / 10000 :=
    ⟨⟨(i 0).val / 10000, lt_of_lt_of_eq (by omega : (i 0).val / 10000 < 10) N_0.symm⟩, rfl⟩
  obtain ⟨-, -, -, -, -, -, e6, e7⟩ := index_facts t
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    rw [e6, ht]; omega
  | ⟨1, _⟩ =>
    show win0_3.index t (1 : Fin 2) * 128 ≤ (i 1).val ∧ (i 1).val < win0_3.index t (1 : Fin 2) * 128 + 128
    rw [e7]; omega

/-! ## The run, read -/

variable (m : (ℓ : Loc nD τ sig) → Buf (Elt Ideal) ℓ) (ρ : Dev nD → PrngReg)

/-- WHAT POINT `t` WRITES BACK is block `t` of `regionProduct` of the arrays as the region finds them. -/
theorem flushed_eq (c : Dev nD) (t : Fin cfg0.N) :
    (dats m 0 c).flushed 3 t
      = ((cfg0.win 3).blk t).view.read (Elt Ideal)
          (regionProduct (V m c (Pipeline.arrRef spec0 0)) (V m c (Pipeline.arrRef spec0 1)) (V m c (Pipeline.arrRef spec0 2))) := by
  rw [Cert.KernelIdeal.Value.flushed3]
  unfold out0_3
  rw [View.canon_unit_zero zero_offsets]
  simp only [View.ld_unit_zero (S := S10000x128) zero_offsets, View.ld_unit_zero (S := S10000x1) zero_offsets,
    View.ld_unit_zero (S := S128x128) zero_offsets]
  unfold iblk
  exact block_eq (V m c (Pipeline.arrRef spec0 0)) (V m c (Pipeline.arrRef spec0 1)) (V m c (Pipeline.arrRef spec0 2)) t

/-- THE ARRAY after the run is `regionProduct` of the arrays the region found. -/
theorem array_region (c : Dev nD) :
    (dats m 0 c).arrAt 3 cfg0.N
      = regionProduct (V m c (Pipeline.arrRef spec0 0)) (V m c (Pipeline.arrRef spec0 1)) (V m c (Pipeline.arrRef spec0 2)) :=
  (dats m 0 c).arrAt_eq_of_cover 3 _ (fun t _ => flushed_eq m c t) covered

/-- … which is `diag(d) · Y · W` of the reference's own stages of the arguments. -/
theorem array_eq (c : Dev nD) :
    (dats m 0 c).arrAt 3 cfg0.N
      = rowScaledProduct (Cert.ReferenceIdeal.Read.val_main_v1 (F := Ideal) (m ((c : Thread nD τ).loc main_arg3)))
          (Cert.ReferenceIdeal.Read.val_main_v29 (F := Ideal) (m ((c : Thread nD τ).loc main_arg0))
            (m ((c : Thread nD τ).loc main_arg1)) (m ((c : Thread nD τ).loc main_arg2))
            (m ((c : Thread nD τ).loc main_arg3)) (m ((c : Thread nD τ).loc main_arg4)))
          (m ((c : Thread nD τ).loc main_arg5)) := by
  have hY : (V m c (Pipeline.arrRef spec0 0) : FVec Ideal S100000x128 .f32) = _ := Cert.KernelIdeal.HostPrefix.features_eq m c
  have hS : (V m c (Pipeline.arrRef spec0 1) : FVec Ideal S100000x1 .f32) = _ := Cert.KernelIdeal.HostPrefix.factors_eq m c
  have hW : (V m c (Pipeline.arrRef spec0 2) : FVec Ideal S128x128 .f32) = _ := V_main_arg5 m c
  refine (array_region m c).trans ?_
  rw [hY, hS, hW]
  exact regionProduct_column _ _ _ _

/-- The kernel's run, read: the result array at `diag(d) · Y · W`, the arguments unchanged. -/
theorem run : θ_run defs (onTc (τ := τ) (main (F := Ideal))) ⟨m, fun _ => 0, ρ⟩ fun r => ∀ c : Dev nD,
      r.2.mem ((c : Thread nD τ).loc main_v31)
        = rowScaledProduct (Cert.ReferenceIdeal.Read.val_main_v1 (F := Ideal) (m ((c : Thread nD τ).loc main_arg3)))
          (Cert.ReferenceIdeal.Read.val_main_v29 (F := Ideal) (m ((c : Thread nD τ).loc main_arg0))
            (m ((c : Thread nD τ).loc main_arg1)) (m ((c : Thread nD τ).loc main_arg2))
            (m ((c : Thread nD τ).loc main_arg3)) (m ((c : Thread nD τ).loc main_arg4)))
          (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (array_eq m c), (h c).2⟩)
    (Cert.KernelIdeal.Value.run_blocks m ρ)

end Cert.KernelIdeal.ArrayValue

end
-- ==== Proof.ReferenceValue.lean ====
/-
  The reference's result is the row-scaled product.

  The reference spreads the vector d of inverse square-root degrees across the columns, multiplies the aggregated
  features Y by it entry by entry, and contracts the result's columns with the rows of W. Read at an index (r, q): the
  contraction is the sum over k of the scaled entry (r, k) times W's entry (k, q); the scaled entry is d's spread value
  at (r, k) — which is d_r, the spread reading the column at (r, 0) and the column reading the vector at r — times
  Y_{r,k}. That is the entry of diag(d) · Y · W.
-/
import proofs.«146223_j35751307772368_2_alg».proof.Proof.Gen.ReferenceIdeal.Read
import proofs.«146223_j35751307772368_2_alg».proof.Proof.RowScaledProduct

noncomputable section

namespace Cert.ReferenceIdeal.RefValue

open Cert.ReferenceIdeal Cert.ReferenceIdeal.Read Idealize.ShloMosaic Idealize.ShloMosaic.ValueIdx Cert.RowScaled

/-- The contraction's left index at `(r, q)` and `k` is `(r, k)`. -/
theorem left_index (r : Fin 100000) (q k : Fin 128) : lidx_main_v33 (ix2 r q) k = ix2 r k :=
  funext fun a => Fin.ext (by match a with | ⟨0, _⟩ => rfl | ⟨1, _⟩ => rfl)

/-- Its right index is `(k, q)`. -/
theorem right_index (r : Fin 100000) (q k : Fin 128) : ridx_main_v33 (ix2 r q) k = ix2 k q :=
  funext fun a => Fin.ext (by match a with | ⟨0, _⟩ => rfl | ⟨1, _⟩ => rfl)

/-- The spread of the column at `(r, k)` reads the vector at `r`. -/
theorem spread_index (r : Fin 100000) (k : Fin 128) : idx_main_v30 (idx_main_v31 (ix2 r k)) = ix1 r :=
  funext fun a => Fin.ext (by match a with | ⟨0, _⟩ => rfl)

/-- The reference's result, as a function of its arguments, is `diag(d) · Y · W` with `d` its vector of inverse
    square-root degrees, `Y` its aggregate and `W` its last argument. -/
theorem result_eq (x0 : (⟨S100000x128, .f32⟩ : BufTy).Contents (Elt Ideal)) (x1 x2 : (⟨S1000000, .i32⟩ : BufTy).Contents (Elt Ideal))
    (x3 : (⟨S100000, .f32⟩ : BufTy).Contents (Elt Ideal)) (x4 : (⟨S20000, .f32⟩ : BufTy).Contents (Elt Ideal))
    (x5 : (⟨S128x128, .f32⟩ : BufTy).Contents (Elt Ideal)) :
    val_main_v33 (F := Ideal) x0 x1 x2 x3 x4 x5
      = rowScaledProduct (val_main_v1 (F := Ideal) x3) (val_main_v29 (F := Ideal) x0 x1 x2 x3 x4) x5 := by
  funext i
  obtain ⟨r, q, rfl⟩ : ∃ (r : Fin 100000) (q : Fin 128), i = ix2 r q := ⟨i 0, i 1, eq_ix2 i⟩
  rw [val_main_v33_apply, rowScaledProduct_apply]
  refine Finset.sum_congr rfl fun k _ => ?_
  rw [left_index, right_index, val_main_v32_apply, val_main_v31_apply, val_main_v30_apply, spread_index]
  rfl

end Cert.ReferenceIdeal.RefValue

end
-- ==== Proof.lean ====
/-
  A hypergraph convolution's closing step, against its reference.

  Both programs first aggregate node features along a hypergraph's incidence list on the host: the features X scaled
  row by row by the node degrees to the power −1/2, gathered and summed into hyperedges, scaled by the inverse hyperedge
  degrees, gathered back and summed into nodes — the aggregate Y — with the same operations and the same literals on
  both sides. They differ in the last step. The reference scales Y's rows by d = dv^(−1/2) on the host and multiplies by
  W in one product: diag(d) · Y · W. The kernel hands Y, the column of d and W to one region of ten grid points; each
  point takes 10000 rows of Y and of the column, scales the rows (the factor written on the right), narrows to a
  shorter float format and multiplies by W into a zero accumulator, writing the same 10000 rows of the result.

  On the extended reals the narrowing is the identity, the accumulator contributes nothing, each written block is the
  restriction to its rows of the one function (r, q) ↦ Σ_k (Y_{r,k} · d_r) · W_{k,q}, and the ten blocks cover the
  array. That function is diag(d) · Y · W by commutativity of the product in each term; no distributivity or
  cancellation is used, so the finiteness of the inputs is never needed. The idealization rewrote nothing, so the kernel
  read at the ideal instance is its own idealization.
-/
import proofs.«146223_j35751307772368_2_alg».proof.Defs
import proofs.«146223_j35751307772368_2_alg».proof.Proof.Gen.Kernel
import proofs.«146223_j35751307772368_2_alg».proof.Proof.Gen.Kernel.Skeleton
import proofs.«146223_j35751307772368_2_alg».proof.Proof.Gen.Kernel.Launch
import proofs.«146223_j35751307772368_2_alg».proof.Proof.Gen.Kernel.Points
import proofs.«146223_j35751307772368_2_alg».proof.Proof.Gen.Kernel.Frame
import proofs.«146223_j35751307772368_2_alg».proof.Proof.Gen.KernelIdeal
import proofs.«146223_j35751307772368_2_alg».proof.Proof.Gen.KernelIdeal.Skeleton
import proofs.«146223_j35751307772368_2_alg».proof.Proof.Gen.KernelIdeal.Launch
import proofs.«146223_j35751307772368_2_alg».proof.Proof.Gen.KernelIdeal.Points
import proofs.«146223_j35751307772368_2_alg».proof.Proof.Gen.KernelIdeal.Frame
import proofs.«146223_j35751307772368_2_alg».proof.Proof.Gen.ReferenceIdeal
import proofs.«146223_j35751307772368_2_alg».proof.Proof.Gen.Pre_finite_inputs
import proofs.«146223_j35751307772368_2_alg».proof.Proof.Gen.KernelIdeal.Value
import proofs.«146223_j35751307772368_2_alg».proof.Proof.Gen.ReferenceIdeal.Run
import proofs.«146223_j35751307772368_2_alg».proof.Proof.Gen.ReferenceIdeal.Read
import proofs.«146223_j35751307772368_2_alg».proof.Proof.ArrayValue
import proofs.«146223_j35751307772368_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel [Cert.Kernel.Facts] [Cert.Pre_finite_inputs.Facts] : Cert.frame_Kernel :=
  fun m ρ _ => Cert.Kernel.Gen.frame m ρ

/-- So does the kernel read at the ideal instance. -/
theorem frame_kernel_ideal [Cert.KernelIdeal.Facts] [Cert.Pre_finite_inputs.Facts] : Cert.frame_KernelIdeal :=
  fun m ρ _ => Cert.KernelIdeal.Gen.frame m ρ

/-- The reference has no region: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end with the result at `diag(d) · Y · W` of arguments that agree: the kernel's array by its ten blocks,
    the reference's by reading its last product at an index. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v33_eq _ _ _ _ _ _).trans (Cert.ReferenceIdeal.RefValue.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
